-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg2 : BitVec 32 := BitVec.ofNat 32 (i 2).val
  let c0_i32_6 : BitVec 32 := 0#32
  let v11 : BitVec 1 := Scalar.cmpi .sgt arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .bf16 = 32 ∨ (Rect.block (s := S4096x4096) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x4096.size a
  hwx0_4 : ∀ i : grid0.Coords, EltTy.bits .f32 = 32 ∨ (Rect.block (s := S8192x4096) S1024x2048.size (cc0_transform_4 i) (hinb0_4 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Cases.lean ====
/-
  The grid of the masked linear layer is (output-column tile j, row tile i, contraction chunk k) with
  extents (2, 8, 4), walked with k fastest: point t has k = t mod 4. The body's two branches are
  "k = 0" (the output tile is set to the chunk's product plus the bias row) and "k > 0" (the chunk's
  product is added to the tile). This module decides both conditions over the 64 points, shows that
  exactly one holds at each point (so the output tile is never idle), and names the staging buffers the
  body is called with at a point.
-/
import proofs.«161057_g72567767433792_cont_sun_m_374_23_alg».proof.Proof.Gen.Kernel.Frame
import proofs.«161057_g72567767433792_cont_sun_m_374_23_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first chunk of the contraction: k = 0, that is t ≡ 0 (mod 4). -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- A later chunk: k > 0, that is t not ≡ 0 (mod 4). -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- At every grid coordinate one of the two branches stores the whole output tile: k = 0 or k > 0. -/
theorem out_live : ∀ i : grid0.Coords, cfg0.idle 4 i = false := by
  intro i
  show (!(k0_cond1 i == 1#1) && !(k0_cond2 i == 1#1)) = false
  unfold k0_cond1 k0_cond2
  generalize i 2 = k
  revert k
  decide

/-- The staging buffer each window is on at point t, as the pipeline passes it to the body. -/
abbrev bufD (t : Fin cfg0.N) : Memref sig .tc .vmem S1024x1024 .f32 := win0_0.stage (cfg0.slots t 0)
abbrev bufD_whole (t : Fin cfg0.N) : (bufD t).IsWhole := hstage0_0 ((cfg0.slots t 0).cast nbuf0_0)
abbrev bufW (t : Fin cfg0.N) : Memref sig .tc .vmem S1024x2048 .bf16 := win0_1.stage (cfg0.slots t 1)
abbrev bufW_whole (t : Fin cfg0.N) : (bufW t).IsWhole := hstage0_1 ((cfg0.slots t 1).cast nbuf0_1)
abbrev bufM (t : Fin cfg0.N) : Memref sig .tc .vmem S1024x2048 .bf16 := win0_2.stage (cfg0.slots t 2)
abbrev bufM_whole (t : Fin cfg0.N) : (bufM t).IsWhole := hstage0_2 ((cfg0.slots t 2).cast nbuf0_2)
abbrev bufB (t : Fin cfg0.N) : Memref sig .tc .vmem S1x2048 .f32 := win0_3.stage (cfg0.slots t 3)
abbrev bufB_whole (t : Fin cfg0.N) : (bufB t).IsWhole := hstage0_3 ((cfg0.slots t 3).cast nbuf0_3)
abbrev bufO (t : Fin cfg0.N) : Memref sig .tc .vmem S1024x2048 .f32 := win0_4.stage (cfg0.slots t 4)
abbrev bufO_whole (t : Fin cfg0.N) : (bufO t).IsWhole := hstage0_4 ((cfg0.slots t 4).cast nbuf0_4)

/-- One staging buffer of the output window, through which a tile's contents are stated. -/
abbrev viewO : View sig .tc .vmem S1024x2048 .f32 := (Memref.whole cc0_stg4_0 : Memref sig .tc .vmem S1024x2048 .f32).view

end Cert.Kernel.Body

end
-- ==== Proof.K.RunFirst.lean ====
/-
  The body at a point of the first contraction chunk (k = 0). From the four input tiles in their staging
  buffers and the output's staging buffer at anything, the body runs to its end and leaves the inputs as
  they were and the output's buffer overwritten by its one store (the chunk's product plus the bias row);
  the stored pieces are found by running the body symbolically.
-/
import proofs.«161057_g72567767433792_cont_sun_m_374_23_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the output's buffer when k = 0, with the proof that the body runs
    to the continuation holding the inputs unchanged and the output's buffer with those pieces written. -/
noncomputable def runFirst (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) :
    { L : List (View.Piece (Elt F) S1024x2048 .f32) //
      ∀ (E : Set ℕ) (K : PUnit → sProp 𝕄),
        iprop(owns (c : Thread nD τ) arg3 fullShare xd ∗ owns (c : Thread nD τ) arg4 fullShare xw ∗ owns (c : Thread nD τ) arg5 fullShare xm ∗ owns (c : Thread nD τ) arg6 fullShare xb ∗ (∃ d, owns (c : Thread nD τ) arg7 fullShare d)
            ∗ (iprop(owns (c : Thread nD τ) arg3 fullShare xd ∗ owns (c : Thread nD τ) arg4 fullShare xw ∗ owns (c : Thread nD τ) arg5 fullShare xm ∗ owns (c : Thread nD τ) arg6 fullShare xb ∗ (∃ f, arg7.view.loc (c : Thread nD τ) ↦[arg7.view.set]{fullShare} arg7.view.writes (Elt F) f L)) -∗ K ⟨⟩))
          ⊢ wp frame (wpE (defs₀ (F := F)) Variants.none c none) E (cc0__masked_linear_kernel i arg3 harg3 arg4 harg4 arg5 harg5 arg6 harg6 arg7 harg7) K } := by
  refine ⟨?_, fun E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Body

end
-- ==== Proof.K.RunLater.lean ====
/-
  The body at a point of a later contraction chunk (k > 0). From the four input tiles in their staging
  buffers and the output's staging buffer at the running total, the body runs to its end and leaves the
  inputs as they were and the output's buffer overwritten by its one store (the total plus the chunk's
  product); the stored pieces are found by running the body symbolically.
-/
import proofs.«161057_g72567767433792_cont_sun_m_374_23_alg».proof.Proof.K.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the output's buffer when k > 0, with the proof that the body runs
    to the continuation holding the inputs unchanged and the output's buffer with those pieces written. -/
noncomputable def runLater (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) :
    { L : List (View.Piece (Elt F) S1024x2048 .f32) //
      ∀ (E : Set ℕ) (K : PUnit → sProp 𝕄),
        iprop(owns (c : Thread nD τ) arg3 fullShare xd ∗ owns (c : Thread nD τ) arg4 fullShare xw ∗ owns (c : Thread nD τ) arg5 fullShare xm ∗ owns (c : Thread nD τ) arg6 fullShare xb ∗ owns (c : Thread nD τ) arg7 fullShare xo
            ∗ (iprop(owns (c : Thread nD τ) arg3 fullShare xd ∗ owns (c : Thread nD τ) arg4 fullShare xw ∗ owns (c : Thread nD τ) arg5 fullShare xm ∗ owns (c : Thread nD τ) arg6 fullShare xb ∗ (∃ f, arg7.view.loc (c : Thread nD τ) ↦[arg7.view.set]{fullShare} arg7.view.writes (Elt F) f L)) -∗ K ⟨⟩))
          ⊢ wp frame (wpE (defs₀ (F := F)) Variants.none c none) E (cc0__masked_linear_kernel i arg3 harg3 arg4 harg4 arg5 harg5 arg6 harg6 arg7 harg7) K } := by
  refine ⟨?_, fun E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Body

end
-- ==== Proof.K.Tile.lean ====
/-
  The output tile of the masked linear layer, followed point by point through its staging buffer: at k = 0 it holds what the first-chunk branch stores, at k > 0 what the accumulating branch
  stores over what the point before left (the tile is written back only after k = 3, so between the
  chunks of one tile nothing else touches it). Each input window's buffer holds its block at every point.
-/
import proofs.«161057_g72567767433792_cont_sun_m_374_23_alg».proof.Proof.K.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves in the output tile -/

/-- The first-chunk branch's one store covers the whole tile. -/
theorem coverFirst (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) (y : S1024x2048.Idx) :
    ∃ pc ∈ (runFirst c i arg3 harg3 arg4 harg4 arg5 harg5 arg6 harg6 arg7 harg7 hc1 hc2 xd xw xm xb).1, y ∈ pc.1.set :=
  View.cover_of_tiledL (runFirst c i arg3 harg3 arg4 harg4 arg5 harg5 arg6 harg6 arg7 harg7 hc1 hc2 xd xw xm xb).1 S1024x2048.size (by sl_kernel_rfl) y

/-- The tile after a first-chunk point: the stored pieces read back. -/
def outFirst (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) : Vec F S1024x2048 .f32 :=
  viewO.read (Elt F) (viewO.writes (Elt F) viewO.junk (runFirst c i arg3 harg3 arg4 harg4 arg5 harg5 arg6 harg6 arg7 harg7 hc1 hc2 xd xw xm xb).1)

/-- The accumulating branch's one store covers the whole tile. -/
theorem coverLater (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) (y : S1024x2048.Idx) :
    ∃ pc ∈ (runLater c i arg3 harg3 arg4 harg4 arg5 harg5 arg6 harg6 arg7 harg7 hc1 hc2 xd xw xm xb xo).1, y ∈ pc.1.set :=
  View.cover_of_tiledL (runLater c i arg3 harg3 arg4 harg4 arg5 harg5 arg6 harg6 arg7 harg7 hc1 hc2 xd xw xm xb xo).1 S1024x2048.size (by sl_kernel_rfl) y

/-- The tile after a later-chunk point that found the tile at `xo`: the stored pieces read back. -/
def outLater (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) : Vec F S1024x2048 .f32 :=
  viewO.read (Elt F) (viewO.writes (Elt F) viewO.junk (runLater c i arg3 harg3 arg4 harg4 arg5 harg5 arg6 harg6 arg7 harg7 hc1 hc2 xd xw xm xb xo).1)

/-- The tile after point `t` when k = 0 there, from the point's input blocks. -/
def firstAt (c : Dev nD) (t : Fin cfg0.N) (h0 : t.val % 4 = 0) : Vec F S1024x2048 .f32 :=
  outFirst c (grid0.coords t) (bufD t) (bufD_whole t) (bufW t) (bufW_whole t) (bufM t) (bufM_whole t) (bufB t) (bufB_whole t) (bufO t) (bufO_whole t)
    ((first_iff t).mpr h0) (fun h => (later_iff t).mp h h0) (iblk m c 0 t) (iblk m c 1 t) (iblk m c 2 t) (iblk m c 3 t)

/-- The tile after point `t` when k > 0 there, from the point's input blocks and the running total `prev`. -/
def laterAt (c : Dev nD) (t : Fin cfg0.N) (h0 : ¬ t.val % 4 = 0) (prev : Vec F S1024x2048 .f32) : Vec F S1024x2048 .f32 :=
  outLater c (grid0.coords t) (bufD t) (bufD_whole t) (bufW t) (bufW_whole t) (bufM t) (bufM_whole t) (bufB t) (bufB_whole t) (bufO t) (bufO_whole t)
    (fun h => h0 ((first_iff t).mp h)) ((later_iff t).mpr h0) (iblk m c 0 t) (iblk m c 1 t) (iblk m c 2 t) (iblk m c 3 t) prev

/-- THE ACCUMULATION. The output tile's staging buffer after the body at position `n`: reset at k = 0,
    otherwise the branch's store over what position `n - 1` left. -/
def tileAfter (c : Dev nD) : (n : ℕ) → n < cfg0.N → Vec F S1024x2048 .f32
  | 0, hn => firstAt m c ⟨0, hn⟩ (Nat.zero_mod _)
  | n + 1, hn =>
    if h0 : (n + 1) % 4 = 0 then firstAt m c ⟨n + 1, hn⟩ h0
    else laterAt m c ⟨n + 1, hn⟩ h0 (tileAfter c n (Nat.lt_of_succ_lt hn))

theorem tileAfter_first (c : Dev nD) (t : Fin cfg0.N) (h0 : t.val % 4 = 0) :
    tileAfter m c t.val t.isLt = firstAt m c t h0 := by
  obtain ⟨n, hn⟩ := t
  cases n with
  | zero => exact rfl
  | succ n => exact (dif_pos h0).trans rfl

theorem tileAfter_later (c : Dev nD) (t : Fin cfg0.N) (h0 : ¬ t.val % 4 = 0) :
    tileAfter m c t.val t.isLt = laterAt m c t h0 (tileAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `tileAfter`; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tileAfter m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a point with k > 0 the output's staging buffer holds what the body left at the point before: the tile
    is written back only after k = 3, and it is stored at every point. -/
theorem before_4_later (c : Dev nD) (t : Fin cfg0.N) (h0 : ¬ t.val % 4 = 0) (d) :
    (dats m 0 c).before 4 t d = tileAfter m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    out_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (bufD t) fullShare ((dats m 0 c).before 0 t d))
    ∗ (∃ d, owns (c : Thread nD τ) (bufW t) fullShare ((dats m 0 c).before 1 t d))
    ∗ (∃ d, owns (c : Thread nD τ) (bufM t) fullShare ((dats m 0 c).before 2 t d))
    ∗ (∃ d, owns (c : Thread nD τ) (bufB t) fullShare ((dats m 0 c).before 3 t d))
    ∗ (∃ d, owns (c : Thread nD τ) (bufO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (bufD t) fullShare ((dats m 0 c).after 0 t)
    ∗ owns (c : Thread nD τ) (bufW t) fullShare ((dats m 0 c).after 1 t)
    ∗ owns (c : Thread nD τ) (bufM t) fullShare ((dats m 0 c).after 2 t)
    ∗ owns (c : Thread nD τ) (bufB t) fullShare ((dats m 0 c).after 3 t)
    ∗ owns (c : Thread nD τ) (bufO t) fullShare ((dats m 0 c).after 4 t))

set_option maxHeartbeats 800000 in
/-- The body at any point: the inputs' buffers hold their blocks; k = 0 or k > 0 decides the branch; at k > 0
    the output's buffer holds the running total; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 4 = 0
  · rw [tileAfter_first m c t h0]
    unfold firstAt outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · rw [tileAfter_later m c t h0]
    simp only [before_4_later m c t h0]
    unfold laterAt outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _)

end Cert.Kernel.Body

end
-- ==== Proof.K.Frame.lean ====
/-
  The frame of the masked linear layer's pipeline: every execution runs to its end without a fault and
  leaves the four argument arrays unchanged. The body's behaviour at a generic point (the module this one
  imports) is the pipeline's body obligation; the launch theorem then runs the 64 points.
-/
import proofs.«161057_g72567767433792_cont_sun_m_374_23_alg».proof.Proof.K.Tile

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the output window is live everywhere (`out_live`). -/
theorem body_obligation (c : Dev nD) : BodyObligation (dats (F := F) m 0 c) (defs₀ (F := F)) Variants.none () Set.univ := fun t => by
  rw [bigSep_W0, bigSep_W0]
  have hl : idle0 4 (grid0.coords t) = false := out_live (grid0.coords t)
  simp only [hl]
  exact sound_body m c t

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Cases.lean ====
/-
  The grid of the masked linear layer is (output-column tile j, row tile i, contraction chunk k) with
  extents (2, 8, 4), walked with k fastest: point t has k = t mod 4. The body's two branches are
  "k = 0" (the output tile is set to the chunk's product plus the bias row) and "k > 0" (the chunk's
  product is added to the tile). This module decides both conditions over the 64 points, shows that
  exactly one holds at each point (so the output tile is never idle), and names the staging buffers the
  body is called with at a point.
-/
import proofs.«161057_g72567767433792_cont_sun_m_374_23_alg».proof.Proof.Gen.KernelIdeal.Frame
import proofs.«161057_g72567767433792_cont_sun_m_374_23_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first chunk of the contraction: k = 0, that is t ≡ 0 (mod 4). -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- A later chunk: k > 0, that is t not ≡ 0 (mod 4). -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- At every grid coordinate one of the two branches stores the whole output tile: k = 0 or k > 0. -/
theorem out_live : ∀ i : grid0.Coords, cfg0.idle 4 i = false := by
  intro i
  show (!(k0_cond1 i == 1#1) && !(k0_cond2 i == 1#1)) = false
  unfold k0_cond1 k0_cond2
  generalize i 2 = k
  revert k
  decide

/-- The staging buffer each window is on at point t, as the pipeline passes it to the body. -/
abbrev bufD (t : Fin cfg0.N) : Memref sig .tc .vmem S1024x1024 .f32 := win0_0.stage (cfg0.slots t 0)
abbrev bufD_whole (t : Fin cfg0.N) : (bufD t).IsWhole := hstage0_0 ((cfg0.slots t 0).cast nbuf0_0)
abbrev bufW (t : Fin cfg0.N) : Memref sig .tc .vmem S1024x2048 .bf16 := win0_1.stage (cfg0.slots t 1)
abbrev bufW_whole (t : Fin cfg0.N) : (bufW t).IsWhole := hstage0_1 ((cfg0.slots t 1).cast nbuf0_1)
abbrev bufM (t : Fin cfg0.N) : Memref sig .tc .vmem S1024x2048 .bf16 := win0_2.stage (cfg0.slots t 2)
abbrev bufM_whole (t : Fin cfg0.N) : (bufM t).IsWhole := hstage0_2 ((cfg0.slots t 2).cast nbuf0_2)
abbrev bufB (t : Fin cfg0.N) : Memref sig .tc .vmem S1x2048 .f32 := win0_3.stage (cfg0.slots t 3)
abbrev bufB_whole (t : Fin cfg0.N) : (bufB t).IsWhole := hstage0_3 ((cfg0.slots t 3).cast nbuf0_3)
abbrev bufO (t : Fin cfg0.N) : Memref sig .tc .vmem S1024x2048 .f32 := win0_4.stage (cfg0.slots t 4)
abbrev bufO_whole (t : Fin cfg0.N) : (bufO t).IsWhole := hstage0_4 ((cfg0.slots t 4).cast nbuf0_4)

/-- One staging buffer of the output window, through which a tile's contents are stated. -/
abbrev viewO : View sig .tc .vmem S1024x2048 .f32 := (Memref.whole cc0_stg4_0 : Memref sig .tc .vmem S1024x2048 .f32).view

end Cert.KernelIdeal.Body

end
-- ==== Proof.KI.RunFirst.lean ====
/-
  The body at a point of the first contraction chunk (k = 0). From the four input tiles in their staging
  buffers and the output's staging buffer at anything, the body runs to its end and leaves the inputs as
  they were and the output's buffer overwritten by its one store (the chunk's product plus the bias row);
  the stored pieces are found by running the body symbolically.
-/
import proofs.«161057_g72567767433792_cont_sun_m_374_23_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the output's buffer when k = 0, with the proof that the body runs
    to the continuation holding the inputs unchanged and the output's buffer with those pieces written. -/
noncomputable def runFirst (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) :
    { L : List (View.Piece (Elt F) S1024x2048 .f32) //
      ∀ (E : Set ℕ) (K : PUnit → sProp 𝕄),
        iprop(owns (c : Thread nD τ) arg3 fullShare xd ∗ owns (c : Thread nD τ) arg4 fullShare xw ∗ owns (c : Thread nD τ) arg5 fullShare xm ∗ owns (c : Thread nD τ) arg6 fullShare xb ∗ (∃ d, owns (c : Thread nD τ) arg7 fullShare d)
            ∗ (iprop(owns (c : Thread nD τ) arg3 fullShare xd ∗ owns (c : Thread nD τ) arg4 fullShare xw ∗ owns (c : Thread nD τ) arg5 fullShare xm ∗ owns (c : Thread nD τ) arg6 fullShare xb ∗ (∃ f, arg7.view.loc (c : Thread nD τ) ↦[arg7.view.set]{fullShare} arg7.view.writes (Elt F) f L)) -∗ K ⟨⟩))
          ⊢ wp frame (wpE (defs₀ (F := F)) Variants.none c none) E (cc0__masked_linear_kernel i arg3 harg3 arg4 harg4 arg5 harg5 arg6 harg6 arg7 harg7) K } := by
  refine ⟨?_, fun E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Body

end
-- ==== Proof.KI.RunLater.lean ====
/-
  The body at a point of a later contraction chunk (k > 0). From the four input tiles in their staging
  buffers and the output's staging buffer at the running total, the body runs to its end and leaves the
  inputs as they were and the output's buffer overwritten by its one store (the total plus the chunk's
  product); the stored pieces are found by running the body symbolically.
-/
import proofs.«161057_g72567767433792_cont_sun_m_374_23_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the output's buffer when k > 0, with the proof that the body runs
    to the continuation holding the inputs unchanged and the output's buffer with those pieces written. -/
noncomputable def runLater (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) :
    { L : List (View.Piece (Elt F) S1024x2048 .f32) //
      ∀ (E : Set ℕ) (K : PUnit → sProp 𝕄),
        iprop(owns (c : Thread nD τ) arg3 fullShare xd ∗ owns (c : Thread nD τ) arg4 fullShare xw ∗ owns (c : Thread nD τ) arg5 fullShare xm ∗ owns (c : Thread nD τ) arg6 fullShare xb ∗ owns (c : Thread nD τ) arg7 fullShare xo
            ∗ (iprop(owns (c : Thread nD τ) arg3 fullShare xd ∗ owns (c : Thread nD τ) arg4 fullShare xw ∗ owns (c : Thread nD τ) arg5 fullShare xm ∗ owns (c : Thread nD τ) arg6 fullShare xb ∗ (∃ f, arg7.view.loc (c : Thread nD τ) ↦[arg7.view.set]{fullShare} arg7.view.writes (Elt F) f L)) -∗ K ⟨⟩))
          ⊢ wp frame (wpE (defs₀ (F := F)) Variants.none c none) E (cc0__masked_linear_kernel i arg3 harg3 arg4 harg4 arg5 harg5 arg6 harg6 arg7 harg7) K } := by
  refine ⟨?_, fun E K => ?run⟩
  case run =>
    simp only [cc0__masked_linear_kernel_eq_skeleton]; unfold cc0__masked_linear_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Body

end
-- ==== Proof.KI.Tile.lean ====
/-
  The output tile of the masked linear layer, followed point by point through its staging buffer: at k = 0 it holds what the first-chunk branch stores, at k > 0 what the accumulating branch
  stores over what the point before left (the tile is written back only after k = 3, so between the
  chunks of one tile nothing else touches it). Each input window's buffer holds its block at every point.
-/
import proofs.«161057_g72567767433792_cont_sun_m_374_23_alg».proof.Proof.KI.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves in the output tile -/

/-- The first-chunk branch's one store covers the whole tile. -/
theorem coverFirst (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) (y : S1024x2048.Idx) :
    ∃ pc ∈ (runFirst c i arg3 harg3 arg4 harg4 arg5 harg5 arg6 harg6 arg7 harg7 hc1 hc2 xd xw xm xb).1, y ∈ pc.1.set :=
  View.cover_of_tiledL (runFirst c i arg3 harg3 arg4 harg4 arg5 harg5 arg6 harg6 arg7 harg7 hc1 hc2 xd xw xm xb).1 S1024x2048.size (by sl_kernel_rfl) y

/-- The tile after a first-chunk point: the stored pieces read back. -/
def outFirst (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) : Vec F S1024x2048 .f32 :=
  viewO.read (Elt F) (viewO.writes (Elt F) viewO.junk (runFirst c i arg3 harg3 arg4 harg4 arg5 harg5 arg6 harg6 arg7 harg7 hc1 hc2 xd xw xm xb).1)

/-- The accumulating branch's one store covers the whole tile. -/
theorem coverLater (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) (y : S1024x2048.Idx) :
    ∃ pc ∈ (runLater c i arg3 harg3 arg4 harg4 arg5 harg5 arg6 harg6 arg7 harg7 hc1 hc2 xd xw xm xb xo).1, y ∈ pc.1.set :=
  View.cover_of_tiledL (runLater c i arg3 harg3 arg4 harg4 arg5 harg5 arg6 harg6 arg7 harg7 hc1 hc2 xd xw xm xb xo).1 S1024x2048.size (by sl_kernel_rfl) y

/-- The tile after a later-chunk point that found the tile at `xo`: the stored pieces read back. -/
def outLater (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) : Vec F S1024x2048 .f32 :=
  viewO.read (Elt F) (viewO.writes (Elt F) viewO.junk (runLater c i arg3 harg3 arg4 harg4 arg5 harg5 arg6 harg6 arg7 harg7 hc1 hc2 xd xw xm xb xo).1)

/-- The tile after point `t` when k = 0 there, from the point's input blocks. -/
def firstAt (c : Dev nD) (t : Fin cfg0.N) (h0 : t.val % 4 = 0) : Vec F S1024x2048 .f32 :=
  outFirst c (grid0.coords t) (bufD t) (bufD_whole t) (bufW t) (bufW_whole t) (bufM t) (bufM_whole t) (bufB t) (bufB_whole t) (bufO t) (bufO_whole t)
    ((first_iff t).mpr h0) (fun h => (later_iff t).mp h h0) (iblk m c 0 t) (iblk m c 1 t) (iblk m c 2 t) (iblk m c 3 t)

/-- The tile after point `t` when k > 0 there, from the point's input blocks and the running total `prev`. -/
def laterAt (c : Dev nD) (t : Fin cfg0.N) (h0 : ¬ t.val % 4 = 0) (prev : Vec F S1024x2048 .f32) : Vec F S1024x2048 .f32 :=
  outLater c (grid0.coords t) (bufD t) (bufD_whole t) (bufW t) (bufW_whole t) (bufM t) (bufM_whole t) (bufB t) (bufB_whole t) (bufO t) (bufO_whole t)
    (fun h => h0 ((first_iff t).mp h)) ((later_iff t).mpr h0) (iblk m c 0 t) (iblk m c 1 t) (iblk m c 2 t) (iblk m c 3 t) prev

/-- THE ACCUMULATION. The output tile's staging buffer after the body at position `n`: reset at k = 0,
    otherwise the branch's store over what position `n - 1` left. -/
def tileAfter (c : Dev nD) : (n : ℕ) → n < cfg0.N → Vec F S1024x2048 .f32
  | 0, hn => firstAt m c ⟨0, hn⟩ (Nat.zero_mod _)
  | n + 1, hn =>
    if h0 : (n + 1) % 4 = 0 then firstAt m c ⟨n + 1, hn⟩ h0
    else laterAt m c ⟨n + 1, hn⟩ h0 (tileAfter c n (Nat.lt_of_succ_lt hn))

theorem tileAfter_first (c : Dev nD) (t : Fin cfg0.N) (h0 : t.val % 4 = 0) :
    tileAfter m c t.val t.isLt = firstAt m c t h0 := by
  obtain ⟨n, hn⟩ := t
  cases n with
  | zero => exact rfl
  | succ n => exact (dif_pos h0).trans rfl

theorem tileAfter_later (c : Dev nD) (t : Fin cfg0.N) (h0 : ¬ t.val % 4 = 0) :
    tileAfter m c t.val t.isLt = laterAt m c t h0 (tileAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `tileAfter`; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tileAfter m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a point with k > 0 the output's staging buffer holds what the body left at the point before: the tile
    is written back only after k = 3, and it is stored at every point. -/
theorem before_4_later (c : Dev nD) (t : Fin cfg0.N) (h0 : ¬ t.val % 4 = 0) (d) :
    (dats m 0 c).before 4 t d = tileAfter m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    out_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (bufD t) fullShare ((dats m 0 c).before 0 t d))
    ∗ (∃ d, owns (c : Thread nD τ) (bufW t) fullShare ((dats m 0 c).before 1 t d))
    ∗ (∃ d, owns (c : Thread nD τ) (bufM t) fullShare ((dats m 0 c).before 2 t d))
    ∗ (∃ d, owns (c : Thread nD τ) (bufB t) fullShare ((dats m 0 c).before 3 t d))
    ∗ (∃ d, owns (c : Thread nD τ) (bufO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (bufD t) fullShare ((dats m 0 c).after 0 t)
    ∗ owns (c : Thread nD τ) (bufW t) fullShare ((dats m 0 c).after 1 t)
    ∗ owns (c : Thread nD τ) (bufM t) fullShare ((dats m 0 c).after 2 t)
    ∗ owns (c : Thread nD τ) (bufB t) fullShare ((dats m 0 c).after 3 t)
    ∗ owns (c : Thread nD τ) (bufO t) fullShare ((dats m 0 c).after 4 t))

set_option maxHeartbeats 800000 in
/-- The body at any point: the inputs' buffers hold their blocks; k = 0 or k > 0 decides the branch; at k > 0
    the output's buffer holds the running total; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 4 = 0
  · rw [tileAfter_first m c t h0]
    unfold firstAt outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · rw [tileAfter_later m c t h0]
    simp only [before_4_later m c t h0]
    unfold laterAt outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _)

end Cert.KernelIdeal.Body

end
-- ==== Proof.KI.Branches.lean ====
/-
  What each branch of the body leaves in the output tile, as a value: at k = 0 the chunk's product plus the
  bias row broadcast down the tile; at k > 0 the tile found there plus the chunk's product. Each branch's one
  store covers the tile, so the tile read back is the stored vector, whose loads read the whole staging buffers.
-/
import proofs.«161057_g72567767433792_cont_sun_m_374_23_alg».proof.Proof.KI.Tile
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin2 : (![0, 0] : Fin 2 → Nat) = fun _ => 0 := funext fun a => by fin_cases a <;> rfl

/-- After a first-chunk point the tile is the chunk's product plus the broadcast bias row. -/
theorem outFirst_eq (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : k0_cond1 i = 1#1) (hc2 : ¬ k0_cond2 i = 1#1) (xd : Vec F S1024x1024 .f32) (xw : Vec F S1024x2048 .bf16) (xm : Vec F S1024x2048 .bf16) (xb : Vec F S1x2048 .f32) :
    outFirst c i arg3 harg3 arg4 harg4 arg5 harg5 arg6 harg6 arg7 harg7 hc1 hc2 xd xw xm xb = k0_pay2 xw xm xd xb := by
  unfold outFirst
  rw [View.read_writes_eq_canon _ _ _ (coverFirst c i arg3 harg3 arg4 harg4 arg5 harg5 arg6 harg6 arg7 harg7 hc1 hc2 xd xw xm xb)]
  unfold runFirst
  dsimp only
  rw [View.canon_unit_zero origin2]
  simp only [View.readAt_eq_ld, harg3.read_unread, harg4.read_unread, harg5.read_unread, harg6.read_unread,
    View.ld_unit_zero (S := S1024x2048) origin2, View.ld_unit_zero (S := S1024x1024) origin2, View.ld_unit_zero (S := S1x2048) origin2]

/-- After a later-chunk point the tile is what it held plus the chunk's product. -/
theorem outLater_eq (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (hc1 : ¬ k0_cond1 i = 1#1) (hc2 : k0_cond2 i = 1#1) (xd : Vec F S1024x1024 .f32) (xw : Vec F S1024x2048 .bf16) (xm : Vec F S1024x2048 .bf16) (xb : Vec F S1x2048 .f32) (xo : Vec F S1024x2048 .f32) :
    outLater c i arg3 harg3 arg4 harg4 arg5 harg5 arg6 harg6 arg7 harg7 hc1 hc2 xd xw xm xb xo = addf xo (k0_pay1 xw xm xd) := by
  unfold outLater
  rw [View.read_writes_eq_canon _ _ _ (coverLater c i arg3 harg3 arg4 harg4 arg5 harg5 arg6 harg6 arg7 harg7 hc1 hc2 xd xw xm xb xo)]
  unfold runLater
  dsimp only
  rw [View.canon_unit_zero origin2]
  unfold k0_pay3
  simp only [View.readAt_eq_ld, harg3.read_unread, harg4.read_unread, harg5.read_unread, harg6.read_unread, harg7.read_unread,
    View.ld_unit_zero (S := S1024x2048) origin2, View.ld_unit_zero (S := S1024x1024) origin2, View.ld_unit_zero (S := S1x2048) origin2, shapeCast_self]

end Cert.KernelIdeal.Body

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.KI.Chunk.lean ====
/-
  One contraction chunk at an entry of the tile, over the extended reals: the matrix unit's product into a zero
  accumulator of the data tile (rounded to the narrower format: no change on the extended reals) with the
  entrywise product of the weight tile and the mask tile is, at (p, q), the sum over x < 1024 of
  data[p, x] * (weight[x, q] * mask[x, q]).  Also the bias row broadcast down the tile, read at (p, q).
-/
import proofs.«161057_g72567767433792_cont_sun_m_374_23_alg».proof.Proof.Gen.KernelIdeal.Skeleton
import proofs.«161057_g72567767433792_cont_sun_m_374_23_alg».proof.Proof.LibDotSum
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

theorem lhs_row (i : S1024x2048.Idx) (z : dot_S1024x1024_S1024x2048_S1024x2048_1_0_0_1_n_n.contr.Idx) : (dot_S1024x1024_S1024x2048_S1024x2048_1_0_0_1_n_n.lhsIdx i z 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_col (i : S1024x2048.Idx) (z : dot_S1024x1024_S1024x2048_S1024x2048_1_0_0_1_n_n.contr.Idx) : (dot_S1024x1024_S1024x2048_S1024x2048_1_0_0_1_n_n.lhsIdx i z 1).val = (z ⟨0, by decide⟩).val :=
  dot_S1024x1024_S1024x2048_S1024x2048_1_0_0_1_n_n.lhsIdx_val_of_single rfl i z
theorem rhs_row (i : S1024x2048.Idx) (z : dot_S1024x1024_S1024x2048_S1024x2048_1_0_0_1_n_n.contr.Idx) : (dot_S1024x1024_S1024x2048_S1024x2048_1_0_0_1_n_n.rhsIdx i z 0).val = (z ⟨0, by decide⟩).val :=
  dot_S1024x1024_S1024x2048_S1024x2048_1_0_0_1_n_n.rhsIdx_val_of_single rfl i z
theorem rhs_col (i : S1024x2048.Idx) (z : dot_S1024x1024_S1024x2048_S1024x2048_1_0_0_1_n_n.contr.Idx) : (dot_S1024x1024_S1024x2048_S1024x2048_1_0_0_1_n_n.rhsIdx i z 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The left operand's index at contraction position k of output entry (p, q): (p, k). -/
theorem lhs_at (p : Fin 1024) (q : Fin 2048) (k : Fin 1024) :
    dot_S1024x1024_S1024x2048_S1024x2048_1_0_0_1_n_n.lhsIdx (ix2 p q) ((contrEquiv1 dot_S1024x1024_S1024x2048_S1024x2048_1_0_0_1_n_n 1024 rfl rfl).symm k) = ix2 p k := by
  funext a
  apply Fin.ext
  match a with
  | ⟨0, _⟩ => exact lhs_row _ _
  | ⟨1, _⟩ => exact (lhs_col _ _).trans (contrEquiv1_symm_val dot_S1024x1024_S1024x2048_S1024x2048_1_0_0_1_n_n 1024 rfl rfl k)

/-- The right operand's index at contraction position k of output entry (p, q): (k, q). -/
theorem rhs_at (p : Fin 1024) (q : Fin 2048) (k : Fin 1024) :
    dot_S1024x1024_S1024x2048_S1024x2048_1_0_0_1_n_n.rhsIdx (ix2 p q) ((contrEquiv1 dot_S1024x1024_S1024x2048_S1024x2048_1_0_0_1_n_n 1024 rfl rfl).symm k) = ix2 k q := by
  funext a
  apply Fin.ext
  match a with
  | ⟨0, _⟩ => exact (rhs_row _ _).trans (contrEquiv1_symm_val dot_S1024x1024_S1024x2048_S1024x2048_1_0_0_1_n_n 1024 rfl rfl k)
  | ⟨1, _⟩ => exact rhs_col _ _

/-- The chunk's product at entry (p, q) of the tile. -/
theorem chunk_apply (xw xm : Vec Ideal S1024x2048 .bf16) (xd : Vec Ideal S1024x1024 .f32) (p : Fin 1024) (q : Fin 2048) :
    k0_pay1 (F := Ideal) xw xm xd (ix2 p q) = ∑ x : Fin 1024, xd (ix2 p x) * (xw (ix2 x q) * xm (ix2 x q)) := by
  unfold k0_pay1
  refine (DotSum.matmul_zero_eq_sum dot_S1024x1024_S1024x2048_S1024x2048_1_0_0_1_n_n 1024 rfl rfl _ _ (ix2 p q) (fun x => ix2 p x) (fun x => ix2 x q) (lhs_at p q) (rhs_at p q)).trans ?_
  refine Finset.sum_congr rfl fun x _ => ?_
  rw [shapeCast_self, shapeCast_self]
  rfl

/-- The first-chunk store at entry (p, q): the chunk's product plus the bias row's entry q. -/
theorem first_apply (xw xm : Vec Ideal S1024x2048 .bf16) (xd : Vec Ideal S1024x1024 .f32) (xb : Vec Ideal S1x2048 .f32) (p : Fin 1024) (q : Fin 2048) :
    k0_pay2 (F := Ideal) xw xm xd xb (ix2 p q) = k0_pay1 (F := Ideal) xw xm xd (ix2 p q) + xb (ix2 (0 : Fin 1) q) := by
  unfold k0_pay2
  rw [shapeCast_self]
  refine congrArg (k0_pay1 (F := Ideal) xw xm xd (ix2 p q) + ·) ?_
  refine broadcastTo_apply xb broadcasts_S1x2048_S1024x2048 (ix2 p q) (ix2 (0 : Fin 1) q) (fun a => ?_)
  match a with
  | ⟨0, _⟩ => show (0 : ℕ) = if (1 : ℕ) = 1 then 0 else _; rw [if_pos rfl]
  | ⟨1, _⟩ => show q.val = if (2048 : ℕ) = 1 then 0 else q.val; rw [if_neg (by decide)]

end Cert.KernelIdeal.Body

end
-- ==== Proof.KI.Blocks.lean ====
/-
  Where each window's block sits in its array. Point t of the 64 is (j, i, k) = (t / 32, t / 4 mod 8, t mod 4).
  The data window's block is rows i·1024 …, columns k·1024 … of the data; the weight's and the mask's blocks are
  rows k·1024 …, columns j·2048 … of the transposed arrays; the bias window's block is columns j·2048 … of the
  bias row; the output's block is rows i·1024 …, columns j·2048 … of the result. An entry of a block is the
  array's entry at block index × block size + the coordinate inside the block, axis by axis.
-/
import proofs.«161057_g72567767433792_cont_sun_m_374_23_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The printed index maps over the grid, decided once. -/
theorem block_index : ∀ t : Fin cfg0.N,
    win0_0.index t (0 : Fin 2) = t.val / 4 % 8 ∧ win0_0.index t (1 : Fin 2) = t.val % 4
    ∧ win0_1.index t (0 : Fin 2) = t.val % 4 ∧ win0_1.index t (1 : Fin 2) = t.val / 32
    ∧ win0_2.index t (0 : Fin 2) = t.val % 4 ∧ win0_2.index t (1 : Fin 2) = t.val / 32
    ∧ win0_3.index t (0 : Fin 2) = 0 ∧ win0_3.index t (1 : Fin 2) = t.val / 32
    ∧ win0_4.index t (0 : Fin 2) = t.val / 4 % 8 ∧ win0_4.index t (1 : Fin 2) = t.val / 32 :=
  (by decide +kernel : ∀ t : Fin grid0.N, _)

/-- Entry (p, x) of the data window's block at point t. -/
theorem dataBlock_apply (c : Dev nD) (t : Fin cfg0.N) (p x : Fin 1024) (R : Fin 8192) (K : Fin 4096)
    (hR : R.val = t.val / 4 % 8 * 1024 + p.val) (hK : K.val = t.val % 4 * 1024 + x.val) :
    (iblk m c 0 t : Vec F S1024x1024 .f32) (ix2 p x) = V m c main_arg0 (ix2 R K) := by
  obtain ⟨e0, e1, -⟩ := block_index t
  unfold iblk
  rw [View.read_apply]
  show V m c main_arg0 (((cfg0.win 0).blk t).view.emb (ix2 p x)) = V m c main_arg0 (ix2 R K)
  refine congrArg (V m c main_arg0) (funext fun a => Fin.ext ?_)
  match a with
  | ⟨0, _⟩ => show win0_0.index t (0 : Fin 2) * 1024 + 1 * p.val = R.val; rw [e0, hR]; omega
  | ⟨1, _⟩ => show win0_0.index t (1 : Fin 2) * 1024 + 1 * x.val = K.val; rw [e1, hK]; omega

/-- Entry (x, q) of the (transposed) weight window's block at point t. -/
theorem weightBlock_apply (c : Dev nD) (t : Fin cfg0.N) (x : Fin 1024) (q : Fin 2048) (K C : Fin 4096)
    (hK : K.val = t.val % 4 * 1024 + x.val) (hC : C.val = t.val / 32 * 2048 + q.val) :
    (iblk m c 1 t : Vec F S1024x2048 .bf16) (ix2 x q) = V m c main_v1 (ix2 K C) := by
  obtain ⟨-, -, e0, e1, -⟩ := block_index t
  unfold iblk
  rw [View.read_apply]
  show V m c main_v1 (((cfg0.win 1).blk t).view.emb (ix2 x q)) = V m c main_v1 (ix2 K C)
  refine congrArg (V m c main_v1) (funext fun a => Fin.ext ?_)
  match a with
  | ⟨0, _⟩ => show win0_1.index t (0 : Fin 2) * 1024 + 1 * x.val = K.val; rw [e0, hK]; omega
  | ⟨1, _⟩ => show win0_1.index t (1 : Fin 2) * 2048 + 1 * q.val = C.val; rw [e1, hC]; omega

/-- Entry (x, q) of the (transposed) mask window's block at point t. -/
theorem maskBlock_apply (c : Dev nD) (t : Fin cfg0.N) (x : Fin 1024) (q : Fin 2048) (K C : Fin 4096)
    (hK : K.val = t.val % 4 * 1024 + x.val) (hC : C.val = t.val / 32 * 2048 + q.val) :
    (iblk m c 2 t : Vec F S1024x2048 .bf16) (ix2 x q) = V m c main_v3 (ix2 K C) := by
  obtain ⟨-, -, -, -, e0, e1, -⟩ := block_index t
  unfold iblk
  rw [View.read_apply]
  show V m c main_v3 (((cfg0.win 2).blk t).view.emb (ix2 x q)) = V m c main_v3 (ix2 K C)
  refine congrArg (V m c main_v3) (funext fun a => Fin.ext ?_)
  match a with
  | ⟨0, _⟩ => show win0_2.index t (0 : Fin 2) * 1024 + 1 * x.val = K.val; rw [e0, hK]; omega
  | ⟨1, _⟩ => show win0_2.index t (1 : Fin 2) * 2048 + 1 * q.val = C.val; rw [e1, hC]; omega

/-- Entry (0, q) of the bias row window's block at point t. -/
theorem biasBlock_apply (c : Dev nD) (t : Fin cfg0.N) (q : Fin 2048) (C : Fin 4096)
    (hC : C.val = t.val / 32 * 2048 + q.val) :
    (iblk m c 3 t : Vec F S1x2048 .f32) (ix2 (0 : Fin 1) q) = V m c main_v4 (ix2 (0 : Fin 1) C) := by
  obtain ⟨-, -, -, -, -, -, e0, e1, -⟩ := block_index t
  unfold iblk
  rw [View.read_apply]
  show V m c main_v4 (((cfg0.win 3).blk t).view.emb (ix2 (0 : Fin 1) q)) = V m c main_v4 (ix2 (0 : Fin 1) C)
  refine congrArg (V m c main_v4) (funext fun a => Fin.ext ?_)
  match a with
  | ⟨0, _⟩ => show win0_3.index t (0 : Fin 2) * 1 + 1 * 0 = 0; rw [e0]
  | ⟨1, _⟩ => show win0_3.index t (1 : Fin 2) * 2048 + 1 * q.val = C.val; rw [e1, hC]; omega

end Cert.KernelIdeal.Body

end
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.Spec.lean ====
/-
  The masked linear layer as one function of its arrays, and the law that joins the kernel's way of computing it to
  the reference's.

  Entry (R, C) of the result is  (sum over kk < 4096 of data[R, kk] * (weight[C, kk] * mask[C, kk])) + bias[C].
  The kernel sees the weight and the mask already transposed (WT[kk, C] = weight[C, kk]) and the bias as a row
  [1, 4096], walks the contraction in four chunks of 1024 and keeps a running total:
      ((chunk 0 + bias) + chunk 1) + chunk 2) + chunk 3.
  Over the extended reals addition is commutative and associative, so the running total after the last chunk is the
  whole sum plus the bias; no finiteness is needed.
-/
import Idealize.ShloMosaic.PureOps.Ideal.Laws
import Idealize.ShloMosaic.Lib.ValueIdx
import proofs.«161057_g72567767433792_cont_sun_m_374_23_alg».proof.Proof.LibTileStats

noncomputable section

namespace Cert.MaskedLinear

open Idealize.ShloMosaic Idealize.ShloMosaic.ValueIdx Cert.Lib.TileStats

abbrev SD : Shape := ⟨2, ![8192, 4096]⟩
abbrev SW : Shape := ⟨2, ![4096, 4096]⟩
abbrev SRow : Shape := ⟨2, ![1, 4096]⟩

/-- One term of entry (R, C)'s contraction, over the operands as the kernel sees them. -/
def term (D : SD.Idx → EReal) (WT MT : SW.Idx → EReal) (R : Fin 8192) (C : Fin 4096) (kk : Fin 4096) : EReal :=
  D (ix2 R kk) * (WT (ix2 kk C) * MT (ix2 kk C))

/-- Chunk `s` of entry (R, C)'s contraction: positions s·1024 … s·1024 + 1023. -/
def chunk (D : SD.Idx → EReal) (WT MT : SW.Idx → EReal) (R : Fin 8192) (C : Fin 4096) (s : ℕ) : EReal :=
  ∑ x : Fin 1024, term D WT MT R C (tileRow 4096 1024 (by decide) s x)

/-- The running total after chunks 0 … k: the chunks' sum plus the bias entry. -/
def partialSum (D : SD.Idx → EReal) (WT MT : SW.Idx → EReal) (B : SRow.Idx → EReal) (R : Fin 8192) (C : Fin 4096) (k : ℕ) : EReal :=
  (∑ s ∈ Finset.range (k + 1), chunk D WT MT R C s) + B (ix2 (0 : Fin 1) C)

/-- The result array: the whole contraction plus the bias entry. -/
def result (D : SD.Idx → EReal) (WT MT : SW.Idx → EReal) (B : SRow.Idx → EReal) : SD.Idx → EReal := fun i =>
  (∑ kk : Fin 4096, term D WT MT ⟨(i 0).val, idx2_lt0 i⟩ ⟨(i 1).val, idx2_lt1 i⟩ kk) + B (ix2 (0 : Fin 1) ⟨(i 1).val, idx2_lt1 i⟩)

/-- The first chunk alone plus the bias is the running total after chunk 0. -/
theorem partialSum_zero (D : SD.Idx → EReal) (WT MT : SW.Idx → EReal) (B : SRow.Idx → EReal) (R : Fin 8192) (C : Fin 4096) :
    chunk D WT MT R C 0 + B (ix2 (0 : Fin 1) C) = partialSum D WT MT B R C 0 := by
  unfold partialSum
  rw [Finset.sum_range_one]

/-- Adding the next chunk to the running total: the bias entry moves past it. -/
theorem partialSum_succ (D : SD.Idx → EReal) (WT MT : SW.Idx → EReal) (B : SRow.Idx → EReal) (R : Fin 8192) (C : Fin 4096) (k : ℕ) :
    partialSum D WT MT B R C k + chunk D WT MT R C (k + 1) = partialSum D WT MT B R C (k + 1) := by
  unfold partialSum
  rw [Finset.sum_range_succ (fun s => chunk D WT MT R C s) (k + 1), add_right_comm]

/-- After the fourth chunk the running total is the whole contraction plus the bias entry. -/
theorem partialSum_three (D : SD.Idx → EReal) (WT MT : SW.Idx → EReal) (B : SRow.Idx → EReal) (R : Fin 8192) (C : Fin 4096) :
    partialSum D WT MT B R C 3 = (∑ kk : Fin 4096, term D WT MT R C kk) + B (ix2 (0 : Fin 1) C) := by
  unfold partialSum chunk
  rw [sum_tiles 4 1024 4096 rfl (by decide) (fun kk => term D WT MT R C kk)]

abbrev SVec : Shape := ⟨1, ![4096]⟩

/-- The layer over the arrays as launched: entry (R, C) is the contraction of data row R with the masked weight
    row C, plus bias entry C. -/
def layer (data : SD.Idx → EReal) (mask weight : SW.Idx → EReal) (bias : SVec.Idx → EReal) : SD.Idx → EReal := fun i =>
  (∑ kk : Fin 4096, data (ix2 ⟨(i 0).val, idx2_lt0 i⟩ kk)
      * (weight (ix2 ⟨(i 1).val, idx2_lt1 i⟩ kk) * mask (ix2 ⟨(i 1).val, idx2_lt1 i⟩ kk)))
    + bias (ix1 ⟨(i 1).val, idx2_lt1 i⟩)

/-- The kernel's result over transposed operands and a bias row is the layer over the arrays as launched. -/
theorem result_eq_layer (D : SD.Idx → EReal) (WT MT : SW.Idx → EReal) (B : SRow.Idx → EReal)
    (data : SD.Idx → EReal) (mask weight : SW.Idx → EReal) (bias : SVec.Idx → EReal)
    (hD : D = data) (hW : ∀ K C : Fin 4096, WT (ix2 K C) = weight (ix2 C K)) (hM : ∀ K C : Fin 4096, MT (ix2 K C) = mask (ix2 C K))
    (hB : ∀ C : Fin 4096, B (ix2 (0 : Fin 1) C) = bias (ix1 C)) :
    result D WT MT B = layer data mask weight bias := by
  subst hD
  funext i
  unfold result layer term
  rw [hB]
  refine congrArg (· + _) (Finset.sum_congr rfl fun kk _ => ?_)
  rw [hW, hM]

end Cert.MaskedLinear

end
-- ==== Proof.KI.Total.lean ====
/-
  The running total in the output tile, entry by entry. After point t = (j, i, k) the tile's entry (p, q) holds
  the running total after chunk k of the result's entry (i·1024 + p, j·2048 + q): chunks 0 … k of the contraction
  plus the bias entry. At k = 0 the branch stores chunk 0 plus the bias; at k > 0 it adds chunk k to what the
  point before left, which is the same tile one chunk earlier.
-/
import proofs.«161057_g72567767433792_cont_sun_m_374_23_alg».proof.Proof.KI.Branches
import proofs.«161057_g72567767433792_cont_sun_m_374_23_alg».proof.Proof.KI.Chunk
import proofs.«161057_g72567767433792_cont_sun_m_374_23_alg».proof.Proof.KI.Blocks
import proofs.«161057_g72567767433792_cont_sun_m_374_23_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

open Cert.MaskedLinear Cert.Lib.TileStats

variable (m : (ℓ : Loc nD τ sig) → Buf (Elt Ideal) ℓ)

/-- Chunk k = t mod 4 of the contraction, from the point's blocks, at entry (p, q) of the tile. -/
theorem chunk_at (c : Dev nD) (t : Fin cfg0.N) (p : Fin 1024) (q : Fin 2048) (R : Fin 8192) (C : Fin 4096)
    (hR : R.val = t.val / 4 % 8 * 1024 + p.val) (hC : C.val = t.val / 32 * 2048 + q.val) :
    k0_pay1 (F := Ideal) (iblk m c 1 t) (iblk m c 2 t) (iblk m c 0 t) (ix2 p q)
      = chunk (V m c main_arg0) (V m c main_v1) (V m c main_v3) R C (t.val % 4) := by
  refine (chunk_apply _ _ _ p q).trans ?_
  unfold chunk term
  refine Finset.sum_congr rfl fun x _ => ?_
  have hK : (tileRow 4096 1024 (by decide) (t.val % 4) x).val = t.val % 4 * 1024 + x.val :=
    tileRow_val _ _ _ (by have := x.isLt; omega)
  rw [dataBlock_apply m c t p x R _ hR hK, weightBlock_apply m c t x q _ C hK hC, maskBlock_apply m c t x q _ C hK hC]

/-- THE RUNNING TOTAL: entry (p, q) of the tile after position n. -/
theorem tile_at (c : Dev nD) : ∀ (n : ℕ) (hn : n < cfg0.N) (p : Fin 1024) (q : Fin 2048) (R : Fin 8192) (C : Fin 4096),
    R.val = n / 4 % 8 * 1024 + p.val → C.val = n / 32 * 2048 + q.val →
    tileAfter m c n hn (ix2 p q)
      = partialSum (V m c main_arg0) (V m c main_v1) (V m c main_v3) (V m c main_v4) R C (n % 4) := by
  intro n
  induction n with
  | zero =>
    intro hn p q R C hR hC
    rw [tileAfter_first m c ⟨0, hn⟩ rfl]
    unfold firstAt
    rw [outFirst_eq, first_apply, chunk_at m c ⟨0, hn⟩ p q R C hR hC, biasBlock_apply m c ⟨0, hn⟩ q C hC]
    exact partialSum_zero _ _ _ _ R C
  | succ n ih =>
    intro hn p q R C hR hC
    by_cases h0 : (n + 1) % 4 = 0
    · rw [tileAfter_first m c ⟨n + 1, hn⟩ h0]
      unfold firstAt
      rw [outFirst_eq, first_apply, chunk_at m c ⟨n + 1, hn⟩ p q R C hR hC, biasBlock_apply m c ⟨n + 1, hn⟩ q C hC]
      show chunk _ _ _ R C ((n + 1) % 4) + _ = partialSum _ _ _ _ R C ((n + 1) % 4)
      rw [h0]
      exact partialSum_zero _ _ _ _ R C
    · rw [tileAfter_later m c ⟨n + 1, hn⟩ h0]
      unfold laterAt
      rw [outLater_eq]
      show tileAfter m c n _ (ix2 p q) + k0_pay1 (F := Ideal) _ _ _ (ix2 p q) = _
      rw [chunk_at m c ⟨n + 1, hn⟩ p q R C hR hC, ih _ p q R C (by omega) (by omega)]
      show partialSum _ _ _ _ R C (n % 4) + chunk _ _ _ R C ((n + 1) % 4) = partialSum _ _ _ _ R C ((n + 1) % 4)
      rw [show (n + 1) % 4 = n % 4 + 1 by omega]
      exact partialSum_succ _ _ _ _ R C (n % 4)

end Cert.KernelIdeal.Body

end
-- ==== Proof.KI.HostSide.lean ====
/-
  The arrays the pipeline's windows read, as the host operations before it left them, over the extended reals:
  the data as launched; the weight and the mask transposed (the rounding to the narrower format changes nothing
  on the extended reals); the bias as a row [1, 4096].
-/
import proofs.«161057_g72567767433792_cont_sun_m_374_23_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The transposed weight: entry (K, C) is the weight's entry (C, K). -/
theorem weightT_apply (c : Dev nD) (K C : Fin 4096) :
    V m c main_v1 (ix2 K C) = m ((c : Thread nD τ).loc main_arg2) (ix2 C K) := by
  have e : (V m c main_v1 : S4096x4096.Idx → EReal)
      = (truncf (F := Ideal) .bf16 (transpose S4096x4096 [1, 0] (m ((c : Thread nD τ).loc main_arg2) : S4096x4096.Idx → EReal) transposes_S4096x4096_S4096x4096_1_0) bitsLt_bf16_f32 : S4096x4096.Idx → EReal) := by
    dsimp only [V, hostOps0]; after_results
  rw [e]
  show transpose S4096x4096 [1, 0] (m ((c : Thread nD τ).loc main_arg2)) transposes_S4096x4096_S4096x4096_1_0 (ix2 K C) = _
  exact transpose_apply [1, 0] _ transposes_S4096x4096_S4096x4096_1_0 (ix2 K C) (ix2 C K) (fun b => match b with
    | ⟨0, _⟩ => rfl
    | ⟨1, _⟩ => rfl)

/-- The transposed mask: entry (K, C) is the mask's entry (C, K). -/
theorem maskT_apply (c : Dev nD) (K C : Fin 4096) :
    V m c main_v3 (ix2 K C) = m ((c : Thread nD τ).loc main_arg1) (ix2 C K) := by
  have e : (V m c main_v3 : S4096x4096.Idx → EReal)
      = (truncf (F := Ideal) .bf16 (transpose S4096x4096 [1, 0] (m ((c : Thread nD τ).loc main_arg1) : S4096x4096.Idx → EReal) transposes_S4096x4096_S4096x4096_1_0) bitsLt_bf16_f32 : S4096x4096.Idx → EReal) := by
    dsimp only [V, hostOps0]; after_results
  rw [e]
  show transpose S4096x4096 [1, 0] (m ((c : Thread nD τ).loc main_arg1)) transposes_S4096x4096_S4096x4096_1_0 (ix2 K C) = _
  exact transpose_apply [1, 0] _ transposes_S4096x4096_S4096x4096_1_0 (ix2 K C) (ix2 C K) (fun b => match b with
    | ⟨0, _⟩ => rfl
    | ⟨1, _⟩ => rfl)

/-- The bias row: entry (0, C) is the bias's entry C. -/
theorem biasRow_apply (c : Dev nD) (C : Fin 4096) :
    V m c main_v4 (ix2 (0 : Fin 1) C) = m ((c : Thread nD τ).loc main_arg3) (ix1 C) := by
  have e : (V m c main_v4 : S1x4096.Idx → EReal)
      = shapeCast S1x4096 (m ((c : Thread nD τ).loc main_arg3)) shapeCasts_S4096_S1x4096 := by
    dsimp only [V, hostOps0]; after_results; rfl
  rw [e]
  refine (shapeCast_addUnit_apply ![4096] _ shapeCasts_S4096_S1x4096 (ix2 (0 : Fin 1) C)).trans ?_
  refine congrArg _ (funext fun a => ?_)
  match a with
  | ⟨0, _⟩ => rfl

end Cert.KernelIdeal.Body

end
-- ==== Proof.KI.Frame.lean ====
/-
  The frame of the masked linear layer's pipeline: every execution runs to its end without a fault and
  leaves the four argument arrays unchanged. The body's behaviour at a generic point (the module this one
  imports) is the pipeline's body obligation; the launch theorem then runs the 64 points.
-/
import proofs.«161057_g72567767433792_cont_sun_m_374_23_alg».proof.Proof.KI.Tile

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the output window is live everywhere (`out_live`). -/
theorem body_obligation (c : Dev nD) : BodyObligation (dats (F := F) m 0 c) (defs₀ (F := F)) Variants.none () Set.univ := fun t => by
  rw [bigSep_W0, bigSep_W0]
  have hl : idle0 4 (grid0.coords t) = false := out_live (grid0.coords t)
  simp only [hl]
  exact sound_body m c t

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KI.Result.lean ====
/-
  The result array after the run. The output tile is written back after its last chunk (k = 3), when it holds the
  whole contraction plus the bias at every entry; the 16 tiles written back tile the [8192, 4096] result, so the
  result array ends holding the layer's function of the arrays as launched, and the four arguments end unchanged.
-/
import proofs.«161057_g72567767433792_cont_sun_m_374_23_alg».proof.Proof.KI.Total
import proofs.«161057_g72567767433792_cont_sun_m_374_23_alg».proof.Proof.KI.HostSide
import proofs.«161057_g72567767433792_cont_sun_m_374_23_alg».proof.Proof.KI.Frame

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

open Cert.MaskedLinear

variable (m : (ℓ : Loc nD τ sig) → Buf (Elt Ideal) ℓ) (ρ : Dev nD → PrngReg)

/-- The result over the arrays as the pipeline's windows read them. -/
abbrev resultK (c : Dev nD) : S8192x4096.Idx → EReal :=
  result (V m c main_arg0) (V m c main_v1) (V m c main_v3) (V m c main_v4)

/-- After a point with k = 3 every entry of the tile is the result's entry at that place of the array. -/
theorem tile_entry (c : Dev nD) (t : Fin cfg0.N) (h3 : t.val % 4 = 3) (p : Fin 1024) (q : Fin 2048) :
    tileAfter m c t.val t.isLt (ix2 p q) = resultK m c (((cfg0.win 4).blk t).view.emb (ix2 p q)) := by
  have hN : t.val < 64 := lt_of_lt_of_eq t.isLt (show cfg0.N = 64 from N_0)
  obtain ⟨-, -, -, -, -, -, -, -, e0, e1⟩ := block_index t
  have hR : t.val / 4 % 8 * 1024 + p.val < 8192 := by have := p.isLt; omega
  have hC : t.val / 32 * 2048 + q.val < 4096 := by have := q.isLt; omega
  rw [tile_at m c t.val t.isLt p q ⟨_, hR⟩ ⟨_, hC⟩ rfl rfl, h3, partialSum_three]
  have r0 : ((((cfg0.win 4).blk t).view.emb (ix2 p q)) 0).val = t.val / 4 % 8 * 1024 + p.val := by
    show win0_4.index t (0 : Fin 2) * 1024 + 1 * p.val = _; rw [e0]; omega
  have r1 : ((((cfg0.win 4).blk t).view.emb (ix2 p q)) 1).val = t.val / 32 * 2048 + q.val := by
    show win0_4.index t (1 : Fin 2) * 2048 + 1 * q.val = _; rw [e1]; omega
  show _ = result _ _ _ _ _
  unfold result
  have eR : (⟨t.val / 4 % 8 * 1024 + p.val, hR⟩ : Fin 8192) = ⟨((((cfg0.win 4).blk t).view.emb (ix2 p q)) 0).val, idx2_lt0 _⟩ := Fin.ext r0.symm
  have eC : (⟨t.val / 32 * 2048 + q.val, hC⟩ : Fin 4096) = ⟨((((cfg0.win 4).blk t).view.emb (ix2 p q)) 1).val, idx2_lt1 _⟩ := Fin.ext r1.symm
  rw [eR, eC]

/-- What a write-back writes is the result read through the point's block. -/
theorem flushed_eq (c : Dev nD) (t : Fin cfg0.N) (hf : (cfg0.win 4).flush t = true) :
    (dats m 0 c).flushed 4 t = ((cfg0.win 4).blk t).view.read (Elt Ideal) (resultK m c) := by
  have h3 : t.val % 4 = 3 := (flush0_4 t).mp hf
  show (cfg0.win 4).cut (grid0.coords t) ((dats m 0 c).after 4 t) = _
  rw [after_4]
  funext j
  rw [View.read_apply]
  show tileAfter m c t.val t.isLt j = resultK m c (((cfg0.win 4).blk t).view.emb j)
  have hj : (j : S1024x2048.Idx) = ix2 (j 0) (j 1) := eq_ix2 (n0 := 1024) (n1 := 2048) j
  rw [hj]
  exact tile_entry m c t h3 _ _

/-- An index of the result array is in point t's block iff each coordinate is in the block's range. -/
theorem mem_outBlock (t : Fin cfg0.N) (i : S8192x4096.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v5).slice (win0_4.rect t)).set ↔ _
  rw [View.set_slice_whole, Rect.mem_set_unit]
  exact Iff.rfl

/-- Every index of the result array is in the block of a point that writes back: the last chunk's point of its tile. -/
theorem covered (i : S8192x4096.Idx) : ∃ t : Fin cfg0.N, (cfg0.win 4).flush t = true ∧ i ∈ ((cfg0.win 4).blk t).view.set := by
  have h0 : (i 0).val < 8192 := idx2_lt0 i
  have h1 : (i 1).val < 4096 := idx2_lt1 i
  have hN : cfg0.N = 64 := N_0
  obtain ⟨t, ht⟩ : ∃ t : Fin cfg0.N, t.val = (i 1).val / 2048 * 32 + (i 0).val / 1024 * 4 + 3 :=
    ⟨⟨(i 1).val / 2048 * 32 + (i 0).val / 1024 * 4 + 3, by rw [hN]; omega⟩, rfl⟩
  obtain ⟨-, -, -, -, -, -, -, -, e0, e1⟩ := block_index t
  refine ⟨t, (flush0_4 t).mpr (by omega), ?_⟩
  rw [mem_outBlock]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 2048 ≤ (i 1).val ∧ (i 1).val < win0_4.index t (1 : Fin 2) * 2048 + 2048; rw [e1]; omega

/-- The result array after the run. -/
theorem final_out (c : Dev nD) : (dats m 0 c).arrAt 4 cfg0.N = resultK m c :=
  (dats m 0 c).arrAt_eq_of_cover 4 (resultK m c) (flushed_eq m c) (fun i => covered i)

/-- Over the arrays as launched the result is the layer. -/
theorem resultK_eq (c : Dev nD) :
    resultK m c = layer (m ((c : Thread nD τ).loc main_arg0)) (m ((c : Thread nD τ).loc main_arg1))
      (m ((c : Thread nD τ).loc main_arg2)) (m ((c : Thread nD τ).loc main_arg3)) :=
  result_eq_layer _ _ _ _ _ _ _ _ (V_main_arg0 m c) (weightT_apply m c) (maskT_apply m c) (biasRow_apply m c)

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v5) = layer (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((h c).1 4).trans (final_out m c)).trans (resultK_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Body

end
-- ==== Proof.RefSide.lean ====
/-
  The reference at an index, over the extended reals: the host's product of the data with the transposed masked
  weight, plus the bias broadcast along the rows, is entry by entry the layer's function of the four arrays.
-/
import proofs.«161057_g72567767433792_cont_sun_m_374_23_alg».proof.Proof.Gen.ReferenceIdeal.Read
import proofs.«161057_g72567767433792_cont_sun_m_374_23_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read
open Idealize.ShloMosaic Idealize.ShloMosaic.ValueIdx Cert.MaskedLinear

/-- The reference's result is the layer of its four arguments. -/
theorem reference_eq_layer (x0 : (⟨S8192x4096, .f32⟩ : BufTy).Contents (Elt Ideal)) (x1 x2 : (⟨S4096x4096, .f32⟩ : BufTy).Contents (Elt Ideal))
    (x3 : (⟨S4096, .f32⟩ : BufTy).Contents (Elt Ideal)) :
    val_main_v5 (F := Ideal) x0 x1 x2 x3 = layer x0 x1 x2 x3 := by
  funext i
  rw [val_main_v5_apply, val_main_v2_apply, val_main_v4_apply, val_main_v3_apply]
  unfold layer
  rw [Ideal.addf_def]
  refine congr (congrArg _ (Finset.sum_congr rfl fun k _ => ?_)) ?_
  · rw [val_main_v1_apply, val_main_v0_apply, Ideal.mulf_def]
    have e1 : lidx_main_v2 i k = ix2 ⟨(i 0).val, idx2_lt0 i⟩ k := funext fun a => Fin.ext (by
      match a with
      | ⟨0, _⟩ => rfl
      | ⟨1, _⟩ => rfl)
    have e2 : idx_main_v1 (ridx_main_v2 i k) = ix2 ⟨(i 1).val, idx2_lt1 i⟩ k := funext fun a => Fin.ext (by
      match a with
      | ⟨0, _⟩ => rfl
      | ⟨1, _⟩ => rfl)
    rw [e1, e2]
  · exact congrArg x3 (funext fun a => Fin.ext (by
      match a with
      | ⟨0, _⟩ => rfl))

end Cert.ReferenceIdeal.RefValue

end
-- ==== Proof.lean ====
/-
  A linear layer with a masked weight: out = data · (weight ∘ mask)ᵀ + bias over float32 [8192, 4096] data,
  [4096, 4096] weight and mask, [4096] bias.

  The kernel walks a grid (output-column tile, row tile, contraction chunk) = (2, 8, 4): at each point it multiplies
  a [1024, 1024] tile of the data by the entrywise product of [1024, 2048] tiles of the transposed weight and mask
  and either stores the product plus the bias row (first chunk) or adds it to the output tile (later chunks); the
  tile is written back after the fourth chunk. The reference multiplies weight and mask, transposes, takes one
  whole matrix product and adds the bias.

  Over the extended reals both compute, at entry (R, C), the sum over kk < 4096 of
  data[R, kk] · (weight[C, kk] · mask[C, kk]), plus bias[C]: the kernel as
  (((chunk₀ + bias) + chunk₁) + chunk₂) + chunk₃, the reference as (whole sum) + bias, equal because addition of
  extended reals is commutative and associative (no finiteness is used). The frames: each program runs to its end
  and leaves its arguments unchanged; for the kernel the output tile's staging buffer is followed through the 64
  points by recursion on the point. The idealization rewrote nothing.
-/
import proofs.«161057_g72567767433792_cont_sun_m_374_23_alg».proof.Defs
import proofs.«161057_g72567767433792_cont_sun_m_374_23_alg».proof.Proof.Gen.Kernel
import proofs.«161057_g72567767433792_cont_sun_m_374_23_alg».proof.Proof.Gen.KernelIdeal
import proofs.«161057_g72567767433792_cont_sun_m_374_23_alg».proof.Proof.Gen.ReferenceIdeal
import proofs.«161057_g72567767433792_cont_sun_m_374_23_alg».proof.Proof.Gen.Pre_finite_inputs
import proofs.«161057_g72567767433792_cont_sun_m_374_23_alg».proof.Proof.Gen.ReferenceIdeal.Run
import proofs.«161057_g72567767433792_cont_sun_m_374_23_alg».proof.Proof.Gen.ReferenceIdeal.Read
import proofs.«161057_g72567767433792_cont_sun_m_374_23_alg».proof.Proof.K.Frame
import proofs.«161057_g72567767433792_cont_sun_m_374_23_alg».proof.Proof.KI.Result
import proofs.«161057_g72567767433792_cont_sun_m_374_23_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's function of arguments that agree. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
